-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S2x524288 : Shape := ⟨2, ![2, 524288]⟩
abbrev S_ : Shape := ⟨0, ![]⟩
abbrev S3x16 : Shape := ⟨2, ![3, 16]⟩
abbrev S16 : Shape := ⟨1, ![16]⟩
abbrev S16x16 : Shape := ⟨2, ![16, 16]⟩
abbrev S16x1 : Shape := ⟨2, ![16, 1]⟩
abbrev S1 : Shape := ⟨1, ![1]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel
  reducesTo_S_S_d : S_.ReducesTo [] S_
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_v32 : IVec S_ 1) (main_v33 : FVec F S1 .f32) : IVec S_ 1 :=
  let main_cst_12 : FVec F S_ .f32 := constant S_ .f32 0x7F800000#32
  let main_v34 : FVec F S1 .f32 := broadcastInDim S1 ![] bcast_S_S1 main_cst_12
  let main_v35 : IVec S1 1 := cmpf .olt main_v33 main_v34
  let main_c_13 : IVec S_ 1 := constantI S_ 1 1#1
  let main_v36 : IVec S_ 1 := (fun x v => Host.reduce IntOp.andi x v reducesTo_S1_S_d0 h_S_) main_v35 main_c_13
  let main_v37 : IVec S_ 1 := andi main_v32 main_v36
  main_v37

def fn_part1 {F : FTy → Type} [FloatOps F] (main_arg5 : FVec F S16x16 .f32) (main_arg6 : FVec F S16 .f32) (main_arg7 : FVec F S16x1 .f32) (main_arg8 : FVec F S1 .f32) (main_v12 : IVec S_ 1) (main_v15 : IVec S16 1) (main_c_5 : IVec S_ 1) : IVec S_ 1 :=
  let main_v16 : IVec S_ 1 := (fun x v => Host.reduce IntOp.andi x v reducesTo_S16_S_d0 h_S_) main_v15 main_c_5
  let main_v17 : IVec S_ 1 := andi main_v12 main_v16
  let main_v18 : FVec F S16x16 .f32 := Host.absf main_arg5
  let main_cst_6 : FVec F S_ .f32 := constant S_ .f32 0x7F800000#32
  let main_v19 : FVec F S16x16 .f32 := broadcastInDim S16x16 ![] bcast_S_S16x16 main_cst_6
  let main_v20 : IVec S16x16 1 := cmpf .olt main_v18 main_v19
  let main_c_7 : IVec S_ 1 := constantI S_ 1 1#1
  let main_v21 : IVec S_ 1 := (fun x v => Host.reduce IntOp.andi x v reducesTo_S16x16_S_d0_1 h_S_) main_v20 main_c_7
  let main_v22 : IVec S_ 1 := andi main_v17 main_v21
  let main_v23 : FVec F S16 .f32 := Host.absf main_arg6
  let main_cst_8 : FVec F S_ .f32 := constant S_ .f32 0x7F800000#32
  let main_v24 : FVec F S16 .f32 := broadcastInDim S16 ![] bcast_S_S16 main_cst_8
  let main_v25 : IVec S16 1 := cmpf .olt main_v23 main_v24
  let main_c_9 : IVec S_ 1 := constantI S_ 1 1#1
  let main_v26 : IVec S_ 1 := (fun x v => Host.reduce IntOp.andi x v reducesTo_S16_S_d0 h_S_) main_v25 main_c_9
  let main_v27 : IVec S_ 1 := andi main_v22 main_v26
  let main_v28 : FVec F S16x1 .f32 := Host.absf main_arg7
  let main_cst_10 : FVec F S_ .f32 := constant S_ .f32 0x7F800000#32
  let main_v29 : FVec F S16x1 .f32 := broadcastInDim S16x1 ![] bcast_S_S16x1 main_cst_10
  let main_v30 : IVec S16x1 1 := cmpf .olt main_v28 main_v29
  let main_c_11 : IVec S_ 1 := constantI S_ 1 1#1
  let main_v31 : IVec S_ 1 := (fun x v => Host.reduce IntOp.andi x v reducesTo_S16x1_S_d0_1 h_S_) main_v30 main_c_11
  let main_v32 : IVec S_ 1 := andi main_v27 main_v31
  let main_v33 : FVec F S1 .f32 := Host.absf main_arg8
  fn_part2 (F := F) main_v32 main_v33

def fn {F : FTy → Type} [FloatOps F] (main_arg0 : FVec F S8192x3 .f32) (main_arg1 : IVec S2x524288 32) (main_arg2 : FVec F S_ .f32) (main_arg3 : FVec F S3x16 .f32) (main_arg4 : FVec F S16 .f32) (main_arg5 : FVec F S16x16 .f32) (main_arg6 : FVec F S16 .f32) (main_arg7 : FVec F S16x1 .f32) (main_arg8 : FVec F S1 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S3x16 .f32 := Host.absf main_arg3
  let main_cst_2 : FVec F S_ .f32 := constant S_ .f32 0x7F800000#32
  let main_v9 : FVec F S3x16 .f32 := broadcastInDim S3x16 ![] bcast_S_S3x16 main_cst_2
  let main_v10 : IVec S3x16 1 := cmpf .olt main_v8 main_v9
  let main_c_3 : IVec S_ 1 := constantI S_ 1 1#1
  let main_v11 : IVec S_ 1 := (fun x v => Host.reduce IntOp.andi x v reducesTo_S3x16_S_d0_1 h_S_) main_v10 main_c_3
  let main_v12 : IVec S_ 1 := andi main_v7 main_v11
  let main_v13 : FVec F S16 .f32 := Host.absf main_arg4
  let main_cst_4 : FVec F S_ .f32 := constant S_ .f32 0x7F800000#32
  let main_v14 : FVec F S16 .f32 := broadcastInDim S16 ![] bcast_S_S16 main_cst_4
  let main_v15 : IVec S16 1 := cmpf .olt main_v13 main_v14
  let main_c_5 : IVec S_ 1 := constantI S_ 1 1#1
  fn_part1 (F := F) main_arg5 main_arg6 main_arg7 main_arg8 main_v12 main_v15 main_c_5
-- ==== Kernel.lean ====
abbrev S8192x3 : Shape := ⟨2, ![8192, 3]⟩
abbrev S2x524288 : Shape := ⟨2, ![2, 524288]⟩
abbrev S_ : Shape := ⟨0, ![]⟩
abbrev S3x16 : Shape := ⟨2, ![3, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x524288 : Shape := ⟨2, ![1, 524288]⟩
abbrev S524288 : Shape := ⟨1, ![524288]⟩
abbrev S524288x1 : Shape := ⟨2, ![524288, 1]⟩
abbrev S524288x3 : Shape := ⟨2, ![524288, 3]⟩
abbrev S1x16 : Shape := ⟨2, ![1, 16]⟩
abbrev S1x1 : Shape := ⟨2, ![1, 1]⟩
abbrev S8192x1 : Shape := ⟨2, ![8192, 1]⟩
abbrev S8192x16 : Shape := ⟨2, ![8192, 16]⟩
abbrev S1x8192 : Shape := ⟨2, ![1, 8192]⟩
abbrev S8192x8192 : Shape := ⟨2, ![8192, 8192]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 37
  | .vmem => 14
  | .smem => 0
  | _ => 0

abbrev bufTy : (tb : Table) → Fin (tcTables nBuf tb) → BufTy
  | .hbm, ⟨0, _⟩ => ⟨S8192x3, .f32⟩
  | .hbm, ⟨1, _⟩ => ⟨S2x524288, .i32⟩
  | .hbm, ⟨2, _⟩ => ⟨S_, .f32⟩
  | .hbm, ⟨3, _⟩ => ⟨S3x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S1x524288, .i32⟩
  | .hbm, ⟨10, _⟩ => ⟨S524288, .i32⟩
  | .hbm, ⟨11, _⟩ => ⟨S1x524288, .i32⟩
  | .hbm, ⟨12, _⟩ => ⟨S524288, .i32⟩
  | .hbm, ⟨13, _⟩ => ⟨S_, .i32⟩
  | .hbm, ⟨14, _⟩ => ⟨S524288, .i32⟩
  | .hbm, ⟨15, _⟩ => ⟨S524288, .i1⟩
  | .hbm, ⟨16, _⟩ => ⟨S_, .i32⟩
  | .hbm, ⟨17, _⟩ => ⟨S524288, .i32⟩
  | .hbm, ⟨18, _⟩ => ⟨S524288, .i32⟩
  | .hbm, ⟨19, _⟩ => ⟨S524288, .i32⟩
  | .hbm, ⟨20, _⟩ => ⟨S524288x1, .i32⟩
  | .hbm, ⟨21, _⟩ => ⟨S524288x3, .f32⟩
  | .hbm, ⟨22, _⟩ => ⟨S_, .f32⟩
  | .hbm, ⟨23, _⟩ => ⟨S8192x3, .f32⟩
  | .hbm, ⟨24, _⟩ => ⟨S524288x1, .i32⟩
  | .hbm, ⟨25, _⟩ => ⟨S8192x3, .f32⟩
  | .hbm, ⟨26, _⟩ => ⟨S_, .f32⟩
  | .hbm, ⟨27, _⟩ => ⟨S_, .f32⟩
  | .hbm, ⟨28, _⟩ => ⟨S8192x3, .f32⟩
  | .hbm, ⟨29, _⟩ => ⟨S8192x3, .f32⟩
  | .hbm, ⟨30, _⟩ => ⟨S8192x3, .f32⟩
  | .hbm, ⟨31, _⟩ => ⟨S1x16, .f32⟩
  | .hbm, ⟨32, _⟩ => ⟨S1x16, .f32⟩
  | .hbm, ⟨33, _⟩ => ⟨S1x1, .f32⟩
  | .hbm, ⟨34, _⟩ => ⟨S8192x1, .f32⟩
  | .hbm, ⟨35, _⟩ => ⟨S1x8192, .f32⟩
  | .hbm, ⟨36, _⟩ => ⟨S8192x8192, .f32⟩
  | .local _ .vmem, ⟨0, _⟩ => ⟨S8192x3, .f32⟩
  | .local _ .vmem, ⟨1, _⟩ => ⟨S3x16, .f32⟩
  | .local _ .vmem, ⟨2, _⟩ => ⟨S1x16, .f32⟩
  | .local _ .vmem, ⟨3, _⟩ => ⟨S16x16, .f32⟩
  | .local _ .vmem, ⟨4, _⟩ => ⟨S1x16, .f32⟩
  | .local _ .vmem, ⟨5, _⟩ => ⟨S16x1, .f32⟩
  | .local _ .vmem, ⟨6, _⟩ => ⟨S1x1, .f32⟩
  | .local _ .vmem, ⟨7, _⟩ => ⟨S8192x1, .f32⟩
  | .local _ .vmem, ⟨8, _⟩ => ⟨S2048x1, .f32⟩
  | .local _ .vmem, ⟨9, _⟩ => ⟨S2048x1, .f32⟩
  | .local _ .vmem, ⟨10, _⟩ => ⟨S1x2048, .f32⟩
  | .local _ .vmem, ⟨11, _⟩ => ⟨S1x2048, .f32⟩
  | .local _ .vmem, ⟨12, _⟩ => ⟨S2048x2048, .f32⟩
  | .local _ .vmem, ⟨13, _⟩ => ⟨S2048x2048, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8192x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S8192x3 : S_.BroadcastsInDim S8192x3 (![] : Fin 0 → Fin S8192x3.rank)
  shapeCasts_S16_S1x16 : S16.ShapeCasts S1x16
  shapeCasts_S1_S1x1 : S1.ShapeCasts S1x1
  inb_S8192x3_S8192x3_0_0 : ∀ a, (![0, 0] : Fin 2 → Nat) a + S8192x3.size a ≤ S8192x3.size a
  h_S8192x3 : 0 < S8192x3.numel
  shapeCasts_S8192x3_S8192x3 : S8192x3.ShapeCasts S8192x3
  inb_S3x16_S3x16_0_0 : ∀ a, (![0, 0] : Fin 2 → Nat) a + S3x16.size a ≤ S3x16.size a
  h_S3x16 : 0 < S3x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  inb_S16x16_S16x16_0_0 : ∀ a, (![0, 0] : Fin 2 → Nat) a + S16x16.size a ≤ S16x16.size a
  h_S16x16 : 0 < S16x16.numel
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  shapeCasts_S8192x1_S1x8192 : S8192x1.ShapeCasts S1x8192
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  gather_S8192x3_S524288x1_S524288x3_1_0_n_n_0_1_13_wf : GatherDims.WF S8192x3 S524288x1 S524288x3 [1] [0] [] [0] [] 1 ![1, 3]
  scatter_S8192x3_S524288x1_S524288x3_1_0_0_1_wf : ScatterDims.WF S8192x3 S524288x1 S524288x3 [1] [0] [0] 1
  dot_S8192x3_S3x16_S8192x16_1_0_0_1_n_n_wf : DotDims.WF S8192x3 S3x16 S8192x16 [1] [0] [0] [1] [] []
  dot_S8192x16_S16x16_S8192x16_1_0_0_1_n_n_wf : DotDims.WF S8192x16 S16x16 S8192x16 [1] [0] [0] [1] [] []
  dot_S8192x16_S16x1_S8192x1_1_0_0_1_n_n_wf : DotDims.WF S8192x16 S16x1 S8192x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x3.size a ≤ S8192x3.size a
  hwx0_0 : ∀ i : grid0.Coords, EltTy.bits .f32 = 32 ∨ (Rect.block (s := S8192x3) S8192x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8192x1.size a ≤ S8192x1.size a
  hwx0_7 : ∀ i : grid0.Coords, EltTy.bits .f32 = 32 ∨ (Rect.block (s := S8192x1) S8192x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1.size a ≤ S8192x1.size a
  hwx1_0 : ∀ i : grid1.Coords, EltTy.bits .f32 = 32 ∨ (Rect.block (s := S8192x1) S2048x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x8192.size a
  hwx1_1 : ∀ i : grid1.Coords, EltTy.bits .f32 = 32 ∨ (Rect.block (s := S1x8192) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S8192x8192.size a
  hwx1_2 : ∀ i : grid1.Coords, EltTy.bits .f32 = 32 ∨ (Rect.block (s := S8192x8192) S2048x2048.size (cc1_transform_2 i) (hinb1_2 i)).WholeWords (EltTy.packing .f32)

variable [Facts₀]

def gather_S8192x3_S524288x1_S524288x3_1_0_n_n_0_1_13 : GatherDims S8192x3 S524288x1 S524288x3 where
  offsetDims := [1]
  collapsedSliceDims := [0]
  operandBatchingDims := []
  startIndicesBatchingDims := []
  startIndexMap := [0]
  indexVectorDim := 1
  sliceSizes := ![1, 3]
  wf := gather_S8192x3_S524288x1_S524288x3_1_0_n_n_0_1_13_wf
def scatter_S8192x3_S524288x1_S524288x3_1_0_0_1 : ScatterDims S8192x3 S524288x1 S524288x3 where
  updateWindowDims := [1]
  insertedWindowDims := [0]
  scatterDimsToOperandDims := [0]
  indexVectorDim := 1
  wf := scatter_S8192x3_S524288x1_S524288x3_1_0_0_1_wf
def dot_S8192x3_S3x16_S8192x16_1_0_0_1_n_n : DotDims S8192x3 S3x16 S8192x16 where
  lhsContracting := [1]
  rhsContracting := [0]
  lhsNonContracting := [0]
  rhsNonContracting := [1]
  lhsBatch := []
  rhsBatch := []
  wf := dot_S8192x3_S3x16_S8192x16_1_0_0_1_n_n_wf
def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf
def dot_S8192x16_S16x1_S8192x1_1_0_0_1_n_n : DotDims S8192x16 S16x1 S8192x1 where
  lhsContracting := [1]
  rhsContracting := [0]
  lhsNonContracting := [0]
  rhsNonContracting := [1]
  lhsBatch := []
  rhsBatch := []
  wf := dot_S8192x16_S16x1_S8192x1_1_0_0_1_n_n_wf

abbrev win0_0 : Pipeline.Window sig grid0 :=
  Pipeline.Window.ofSpec (Memref.whole main_v17) S8192x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S8192x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v21) S2048x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S2048x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x3 : Shape := ⟨2, ![8192, 3]⟩
abbrev S2x524288 : Shape := ⟨2, ![2, 524288]⟩
abbrev S_ : Shape := ⟨0, ![]⟩
abbrev S3x16 : Shape := ⟨2, ![3, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x524288 : Shape := ⟨2, ![1, 524288]⟩
abbrev S524288 : Shape := ⟨1, ![524288]⟩
abbrev S524288x1 : Shape := ⟨2, ![524288, 1]⟩
abbrev S524288x3 : Shape := ⟨2, ![524288, 3]⟩
abbrev S8192x16 : Shape := ⟨2, ![8192, 16]⟩
abbrev S1x16 : Shape := ⟨2, ![1, 16]⟩
abbrev S8192x1 : Shape := ⟨2, ![8192, 1]⟩
abbrev S1x1 : Shape := ⟨2, ![1, 1]⟩
abbrev S1x8192 : Shape := ⟨2, ![1, 8192]⟩
abbrev S8192x8192 : Shape := ⟨2, ![8192, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S2x524288, .i32⟩
  | .hbm, ⟨2, _⟩ => ⟨S_, .f32⟩
  | .hbm, ⟨3, _⟩ => ⟨S3x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S1x524288, .i32⟩
  | .hbm, ⟨10, _⟩ => ⟨S524288, .i32⟩
  | .hbm, ⟨11, _⟩ => ⟨S1x524288, .i32⟩
  | .hbm, ⟨12, _⟩ => ⟨S524288, .i32⟩
  | .hbm, ⟨13, _⟩ => ⟨S_, .i32⟩
  | .hbm, ⟨14, _⟩ => ⟨S524288, .i32⟩
  | .hbm, ⟨15, _⟩ => ⟨S524288, .i1⟩
  | .hbm, ⟨16, _⟩ => ⟨S_, .i32⟩
  | .hbm, ⟨17, _⟩ => ⟨S524288, .i32⟩
  | .hbm, ⟨18, _⟩ => ⟨S524288, .i32⟩
  | .hbm, ⟨19, _⟩ => ⟨S524288, .i32⟩
  | .hbm, ⟨20, _⟩ => ⟨S524288x1, .i32⟩
  | .hbm, ⟨21, _⟩ => ⟨S524288x3, .f32⟩
  | .hbm, ⟨22, _⟩ => ⟨S_, .f32⟩
  | .hbm, ⟨23, _⟩ => ⟨S8192x3, .f32⟩
  | .hbm, ⟨24, _⟩ => ⟨S524288x1, .i32⟩
  | .hbm, ⟨25, _⟩ => ⟨S8192x3, .f32⟩
  | .hbm, ⟨26, _⟩ => ⟨S_, .f32⟩
  | .hbm, ⟨27, _⟩ => ⟨S_, .f32⟩
  | .hbm, ⟨28, _⟩ => ⟨S8192x3, .f32⟩
  | .hbm, ⟨29, _⟩ => ⟨S8192x3, .f32⟩
  | .hbm, ⟨30, _⟩ => ⟨S8192x3, .f32⟩
  | .hbm, ⟨31, _⟩ => ⟨S8192x16, .f32⟩
  | .hbm, ⟨32, _⟩ => ⟨S1x16, .f32⟩
  | .hbm, ⟨33, _⟩ => ⟨S8192x16, .f32⟩
  | .hbm, ⟨34, _⟩ => ⟨S8192x16, .f32⟩
  | .hbm, ⟨35, _⟩ => ⟨S_, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S1x16, .f32⟩
  | .hbm, ⟨40, _⟩ => ⟨S8192x16, .f32⟩
  | .hbm, ⟨41, _⟩ => ⟨S8192x16, .f32⟩
  | .hbm, ⟨42, _⟩ => ⟨S_, .f32⟩
  | .hbm, ⟨43, _⟩ => ⟨S8192x16, .f32⟩
  | .hbm, ⟨44, _⟩ => ⟨S8192x16, .f32⟩
  | .hbm, ⟨45, _⟩ => ⟨S8192x1, .f32⟩
  | .hbm, ⟨46, _⟩ => ⟨S1x1, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S1x8192, .f32⟩
  | .hbm, ⟨53, _⟩ => ⟨S8192x8192, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_cst : Ref sig .tc := ⟨.hbm, 35, rfl⟩
abbrev main_call0_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call1_cst : Ref sig .tc := ⟨.hbm, 42, rfl⟩
abbrev main_call1_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call2_cst : Ref sig .tc := ⟨.hbm, 49, rfl⟩
abbrev main_call2_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S8192x3 : S_.BroadcastsInDim S8192x3 (![] : Fin 0 → Fin S8192x3.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  transposes_S8192x1_S1x8192_1_0 : S8192x1.Transposes [1, 0] S1x8192
  gather_S8192x3_S524288x1_S524288x3_1_0_n_n_0_1_13_wf : GatherDims.WF S8192x3 S524288x1 S524288x3 [1] [0] [] [0] [] 1 ![1, 3]
  scatter_S8192x3_S524288x1_S524288x3_1_0_0_1_wf : ScatterDims.WF S8192x3 S524288x1 S524288x3 [1] [0] [0] 1
  dot_S8192x3_S3x16_S8192x16_1_0_0_1_n_n_wf : DotDims.WF S8192x3 S3x16 S8192x16 [1] [0] [0] [1] [] []
  dot_S8192x16_S16x16_S8192x16_1_0_0_1_n_n_wf : DotDims.WF S8192x16 S16x16 S8192x16 [1] [0] [0] [1] [] []
  dot_S8192x16_S16x1_S8192x1_1_0_0_1_n_n_wf : DotDims.WF S8192x16 S16x1 S8192x1 [1] [0] [0] [1] [] []
  dot_S8192x1_S1x8192_S8192x8192_1_0_0_1_n_n_wf : DotDims.WF S8192x1 S1x8192 S8192x8192 [1] [0] [0] [1] [] []

variable [Facts₀]

def gather_S8192x3_S524288x1_S524288x3_1_0_n_n_0_1_13 : GatherDims S8192x3 S524288x1 S524288x3 where
  offsetDims := [1]
  collapsedSliceDims := [0]
  operandBatchingDims := []
  startIndicesBatchingDims := []
  startIndexMap := [0]
  indexVectorDim := 1
  sliceSizes := ![1, 3]
  wf := gather_S8192x3_S524288x1_S524288x3_1_0_n_n_0_1_13_wf
def scatter_S8192x3_S524288x1_S524288x3_1_0_0_1 : ScatterDims S8192x3 S524288x1 S524288x3 where
  updateWindowDims := [1]
  insertedWindowDims := [0]
  scatterDimsToOperandDims := [0]
  indexVectorDim := 1
  wf := scatter_S8192x3_S524288x1_S524288x3_1_0_0_1_wf
def dot_S8192x3_S3x16_S8192x16_1_0_0_1_n_n : DotDims S8192x3 S3x16 S8192x16 where
  lhsContracting := [1]
  rhsContracting := [0]
  lhsNonContracting := [0]
  rhsNonContracting := [1]
  lhsBatch := []
  rhsBatch := []
  wf := dot_S8192x3_S3x16_S8192x16_1_0_0_1_n_n_wf
def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf
def dot_S8192x16_S16x1_S8192x1_1_0_0_1_n_n : DotDims S8192x16 S16x1 S8192x1 where
  lhsContracting := [1]
  rhsContracting := [0]
  lhsNonContracting := [0]
  rhsNonContracting := [1]
  lhsBatch := []
  rhsBatch := []
  wf := dot_S8192x16_S16x1_S8192x1_1_0_0_1_n_n_wf
def dot_S8192x1_S1x8192_S8192x8192_1_0_0_1_n_n : DotDims S8192x1 S1x8192 S8192x8192 where
  lhsContracting := [1]
  rhsContracting := [0]
  lhsNonContracting := [0]
  rhsNonContracting := [1]
  lhsBatch := []
  rhsBatch := []
  wf := dot_S8192x1_S1x8192_S8192x8192_1_0_0_1_n_n_wf

class Facts : Prop extends Facts₀ where

variable [Facts]
-- ==== Proof.KernelRun.lean ====
/-
  The idealized kernel's run with its RESULT kept.  @main is four segments: the host operations that form the
  aggregated node features, the multilayer-perceptron region, one host reshape, and the outer-product region.
  The frame run keeps, at the end, every unscoped buffer at the contents of the last segment boundary; read at
  the result buffer this names the result array, beside the unchanged arguments.
-/
import proofs.«104943_j90950227460160_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the
    outer-product region leaves in it (the last boundary's contents, read at that buffer) and the arguments as launched. -/
theorem run_result : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

/-- The result buffer at the last boundary is the outer-product region's output array after all sixteen write-backs. -/
theorem result_arr (c : Dev nD) :
    W4 m ρ c (Proc.devRef .tc main_v23) = (dat1 (V3 m ρ) c).arrAt 2 cfg1.N :=
  W4_arr m ρ c 2

/-- The outer-product region enters with the perceptron's output array where the perceptron region left it: the one host
    operation between them writes another buffer. -/
theorem entry_col (c : Dev nD) :
    V3 m ρ c main_v21 = (dat0 (V1 m ρ) c).arrAt 7 cfg0.N := by
  refine Eq.trans ?_ (W2_arr m ρ c 7)
  show StableHlo.after hostOps1 (W2 m ρ c) (Proc.devRef .tc main_v21) = _
  after_results

end Cert.KernelIdeal.Result

end
-- ==== Proof.HostGlue.lean ====
/-
  What the host operations of the idealized kernel's @main leave in the buffers the two regions read.
  Before the perceptron region the host forms the aggregated features  z = (1 + eps) · x + segment_sum (x[src], dst)  by the
  same operations, in the same order, as the reference does (the reference's value `%17`), and casts each bias vector to a
  row; the weight matrices are arguments, which no host operation writes.  Between the regions the host casts the
  perceptron's column [8192, 1] to the row [1, 8192].  Each buffer is read back through the list of host operations.
-/
import proofs.«104943_j90950227460160_2_alg».proof.Proof.KernelRun
import proofs.«104943_j90950227460160_2_alg».proof.Proof.Gen.ReferenceIdeal.Read

set_option maxRecDepth 16384

noncomputable section

namespace Cert.KernelIdeal.Result

open Cert.KernelIdeal Cert.KernelIdeal.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

set_option maxHeartbeats 2000000 in
/-- The perceptron region is entered with the features the reference calls `%17`, of the same three arguments. -/
theorem entry_z (c : Dev nD) :
    V1 m ρ c main_v17 = Cert.ReferenceIdeal.Read.val_main_v17 (F := F) (m ((c.tc : Thread nD τ).loc main_arg0))
      (m ((c.tc : Thread nD τ).loc main_arg1)) (m ((c.tc : Thread nD τ).loc main_arg2)) := by
  show StableHlo.after hostOps0 (W0 m ρ c) (Proc.devRef .tc main_v17) = _
  after_results_simp
  rfl

set_option maxHeartbeats 2000000 in
/-- The first weight matrix is the argument. -/
theorem entry_w1 (c : Dev nD) : V1 m ρ c main_arg3 = m ((c.tc : Thread nD τ).loc main_arg3) := by
  show StableHlo.after hostOps0 (W0 m ρ c) (Proc.devRef .tc main_arg3) = _
  after_results_simp

set_option maxHeartbeats 2000000 in
/-- The first bias row is the bias vector cast to [1, 16]. -/
theorem entry_b1 (c : Dev nD) :
    V1 m ρ c main_v18 = shapeCast S1x16 (m ((c.tc : Thread nD τ).loc main_arg4)) shapeCasts_S16_S1x16 := by
  show StableHlo.after hostOps0 (W0 m ρ c) (Proc.devRef .tc main_v18) = _
  after_results_simp
  rfl

set_option maxHeartbeats 2000000 in
/-- The second weight matrix is the argument. -/
theorem entry_w2 (c : Dev nD) : V1 m ρ c main_arg5 = m ((c.tc : Thread nD τ).loc main_arg5) := by
  show StableHlo.after hostOps0 (W0 m ρ c) (Proc.devRef .tc main_arg5) = _
  after_results_simp

set_option maxHeartbeats 2000000 in
/-- The second bias row is the bias vector cast to [1, 16]. -/
theorem entry_b2 (c : Dev nD) :
    V1 m ρ c main_v19 = shapeCast S1x16 (m ((c.tc : Thread nD τ).loc main_arg6)) shapeCasts_S16_S1x16 := by
  show StableHlo.after hostOps0 (W0 m ρ c) (Proc.devRef .tc main_v19) = _
  after_results_simp
  rfl

set_option maxHeartbeats 2000000 in
/-- The third weight matrix is the argument. -/
theorem entry_w3 (c : Dev nD) : V1 m ρ c main_arg7 = m ((c.tc : Thread nD τ).loc main_arg7) := by
  show StableHlo.after hostOps0 (W0 m ρ c) (Proc.devRef .tc main_arg7) = _
  after_results_simp

set_option maxHeartbeats 2000000 in
/-- The third bias entry is the bias vector cast to [1, 1]. -/
theorem entry_b3 (c : Dev nD) :
    V1 m ρ c main_v20 = shapeCast S1x1 (m ((c.tc : Thread nD τ).loc main_arg8)) shapeCasts_S1_S1x1 := by
  show StableHlo.after hostOps0 (W0 m ρ c) (Proc.devRef .tc main_v20) = _
  after_results_simp
  rfl

/-- The outer-product region's row is its column cast to [1, 8192]. -/
theorem entry_row (c : Dev nD) :
    V3 m ρ c main_v22 = shapeCast S1x8192 (V3 m ρ c main_v21) shapeCasts_S8192x1_S1x8192 := by
  show StableHlo.after hostOps1 (W2 m ρ c) (Proc.devRef .tc main_v22)
    = shapeCast S1x8192 (StableHlo.after hostOps1 (W2 m ρ c) (Proc.devRef .tc main_v21)) shapeCasts_S8192x1_S1x8192
  after_results
  rfl

end Cert.KernelIdeal.Result

end
-- ==== Proof.MlpRegion.lean ====
/-
  The perceptron region's output array.  The region's grid has one point, and at that point every window's block is its
  whole array (all block indices are zero): the body loads the seven input arrays whole, and its one store writes the
  whole output buffer, which the one write-back copies onto the whole output array.  So after the region the output array
  holds the body's payload of the arrays the region was entered with.
-/
import proofs.«104943_j90950227460160_2_alg».proof.Proof.Gen.KernelIdeal.Frame
import Idealize.ShloMosaic.Lib.Pipeline.Value

set_option maxRecDepth 16384

noncomputable section

namespace Cert.KernelIdeal.Mlp

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- At the grid's one point every window's block index is zero on both axes (decided over the grid). -/
theorem index_zero : ∀ t : Fin cfg0.N, ∀ a : Fin 2,
    win0_0.index t a = 0 ∧ win0_1.index t a = 0 ∧ win0_2.index t a = 0 ∧ win0_3.index t a = 0
    ∧ win0_4.index t a = 0 ∧ win0_5.index t a = 0 ∧ win0_6.index t a = 0 ∧ win0_7.index t a = 0 :=
  (by decide +kernel : ∀ t : Fin grid0.N, ∀ a : Fin 2, _)

/-! ## Each input window's one block is its array -/

/-- Window 0's block at the point is its whole array: the aggregated features. -/
theorem block_z (c : Dev nD) (t : Fin cfg0.N) : iblk0 V c 0 t = (V c main_v17 : S8192x3.Idx → Elt F .f32) := by
  funext y
  show V c main_v17 (((cfg0.win 0).blk t).view.emb y) = V c main_v17 y
  refine congrArg _ (funext fun a => Fin.ext ?_)
  match a with
  | ⟨0, _⟩ => show win0_0.index t (0 : Fin 2) * 8192 + 1 * (y 0).val = (y 0).val; rw [(index_zero t 0).1]; omega
  | ⟨1, _⟩ => show win0_0.index t (1 : Fin 2) * 3 + 1 * (y 1).val = (y 1).val; rw [(index_zero t 1).1]; omega

/-- Window 1's block at the point is its whole array: the first weight matrix. -/
theorem block_w1 (c : Dev nD) (t : Fin cfg0.N) : iblk0 V c 1 t = (V c main_arg3 : S3x16.Idx → Elt F .f32) := by
  funext y
  show V c main_arg3 (((cfg0.win 1).blk t).view.emb y) = V c main_arg3 y
  refine congrArg _ (funext fun a => Fin.ext ?_)
  match a with
  | ⟨0, _⟩ => show win0_1.index t (0 : Fin 2) * 3 + 1 * (y 0).val = (y 0).val; rw [(index_zero t 0).2.1]; omega
  | ⟨1, _⟩ => show win0_1.index t (1 : Fin 2) * 16 + 1 * (y 1).val = (y 1).val; rw [(index_zero t 1).2.1]; omega

/-- Window 2's block at the point is its whole array: the first bias row. -/
theorem block_b1 (c : Dev nD) (t : Fin cfg0.N) : iblk0 V c 2 t = (V c main_v18 : S1x16.Idx → Elt F .f32) := by
  funext y
  show V c main_v18 (((cfg0.win 2).blk t).view.emb y) = V c main_v18 y
  refine congrArg _ (funext fun a => Fin.ext ?_)
  match a with
  | ⟨0, _⟩ => show win0_2.index t (0 : Fin 2) * 1 + 1 * (y 0).val = (y 0).val; rw [(index_zero t 0).2.2.1]; omega
  | ⟨1, _⟩ => show win0_2.index t (1 : Fin 2) * 16 + 1 * (y 1).val = (y 1).val; rw [(index_zero t 1).2.2.1]; omega

/-- Window 3's block at the point is its whole array: the second weight matrix. -/
theorem block_w2 (c : Dev nD) (t : Fin cfg0.N) : iblk0 V c 3 t = (V c main_arg5 : S16x16.Idx → Elt F .f32) := by
  funext y
  show V c main_arg5 (((cfg0.win 3).blk t).view.emb y) = V c main_arg5 y
  refine congrArg _ (funext fun a => Fin.ext ?_)
  match a with
  | ⟨0, _⟩ => show win0_3.index t (0 : Fin 2) * 16 + 1 * (y 0).val = (y 0).val; rw [(index_zero t 0).2.2.2.1]; omega
  | ⟨1, _⟩ => show win0_3.index t (1 : Fin 2) * 16 + 1 * (y 1).val = (y 1).val; rw [(index_zero t 1).2.2.2.1]; omega

/-- Window 4's block at the point is its whole array: the second bias row. -/
theorem block_b2 (c : Dev nD) (t : Fin cfg0.N) : iblk0 V c 4 t = (V c main_v19 : S1x16.Idx → Elt F .f32) := by
  funext y
  show V c main_v19 (((cfg0.win 4).blk t).view.emb y) = V c main_v19 y
  refine congrArg _ (funext fun a => Fin.ext ?_)
  match a with
  | ⟨0, _⟩ => show win0_4.index t (0 : Fin 2) * 1 + 1 * (y 0).val = (y 0).val; rw [(index_zero t 0).2.2.2.2.1]; omega
  | ⟨1, _⟩ => show win0_4.index t (1 : Fin 2) * 16 + 1 * (y 1).val = (y 1).val; rw [(index_zero t 1).2.2.2.2.1]; omega

/-- Window 5's block at the point is its whole array: the third weight matrix. -/
theorem block_w3 (c : Dev nD) (t : Fin cfg0.N) : iblk0 V c 5 t = (V c main_arg7 : S16x1.Idx → Elt F .f32) := by
  funext y
  show V c main_arg7 (((cfg0.win 5).blk t).view.emb y) = V c main_arg7 y
  refine congrArg _ (funext fun a => Fin.ext ?_)
  match a with
  | ⟨0, _⟩ => show win0_5.index t (0 : Fin 2) * 16 + 1 * (y 0).val = (y 0).val; rw [(index_zero t 0).2.2.2.2.2.1]; omega
  | ⟨1, _⟩ => show win0_5.index t (1 : Fin 2) * 1 + 1 * (y 1).val = (y 1).val; rw [(index_zero t 1).2.2.2.2.2.1]; omega

/-- Window 6's block at the point is its whole array: the third bias entry. -/
theorem block_b3 (c : Dev nD) (t : Fin cfg0.N) : iblk0 V c 6 t = (V c main_v20 : S1x1.Idx → Elt F .f32) := by
  funext y
  show V c main_v20 (((cfg0.win 6).blk t).view.emb y) = V c main_v20 y
  refine congrArg _ (funext fun a => Fin.ext ?_)
  match a with
  | ⟨0, _⟩ => show win0_6.index t (0 : Fin 2) * 1 + 1 * (y 0).val = (y 0).val; rw [(index_zero t 0).2.2.2.2.2.2.1]; omega
  | ⟨1, _⟩ => show win0_6.index t (1 : Fin 2) * 1 + 1 * (y 1).val = (y 1).val; rw [(index_zero t 1).2.2.2.2.2.2.1]; omega

/-! ## What the point writes back, and the array after the region -/

/-- The array the region leaves in the output window: the body's payload of the seven arrays it was entered with. -/
abbrev column (c : Dev nD) : S8192x1.Idx → Elt F .f32 :=
  k0_pay1 (V c main_v17) (V c main_arg3) (V c main_v18) (V c main_arg5) (V c main_v19) (V c main_arg7) (V c main_v20)

/-- The output buffer after the body: the one store covers it, and the loads read the blocks whole. -/
theorem out_eq (c : Dev nD) (t : Fin cfg0.N) :
    out0_7 (iblk0 V c 0 t) (iblk0 V c 1 t) (iblk0 V c 2 t) (iblk0 V c 3 t) (iblk0 V c 4 t) (iblk0 V c 5 t) (iblk0 V c 6 t) = column V c := by
  unfold out0_7
  rw [View.canon_unit_zero zero_offsets]
  simp only [View.ld_unit_zero (S := S8192x3) zero_offsets, View.ld_unit_zero (S := S3x16) zero_offsets,
    View.ld_unit_zero (S := S1x16) zero_offsets, View.ld_unit_zero (S := S16x16) zero_offsets,
    View.ld_unit_zero (S := S16x1) zero_offsets, View.ld_unit_zero (S := S1x1) zero_offsets]
  rw [block_z V c t, block_w1 V c t, block_b1 V c t, block_w2 V c t, block_b2 V c t, block_w3 V c t, block_b3 V c t]

/-- A whole-array function cut to the output window's one block is that function read through the block. -/
theorem read_whole (t : Fin cfg0.N) (P : S8192x1.Idx → Elt F .f32) :
    (cfg0.win 7).cut (grid0.coords t) P = ((cfg0.win 7).blk t).view.read (Elt F) P := by
  funext y
  show P _ = P (((cfg0.win 7).blk t).view.emb y)
  refine congrArg P (funext fun a => Fin.ext ?_)
  match a with
  | ⟨0, _⟩ => show (y 0).val = win0_7.index t (0 : Fin 2) * 8192 + 1 * (y 0).val; rw [(index_zero t 0).2.2.2.2.2.2.2]; omega
  | ⟨1, _⟩ => show (y 1).val = win0_7.index t (1 : Fin 2) * 1 + 1 * (y 1).val; rw [(index_zero t 1).2.2.2.2.2.2.2]; omega

/-- What the point writes back is the block of `column`. -/
theorem flushed_eq (c : Dev nD) (t : Fin cfg0.N) :
    (dat0 V c).flushed 7 t = ((cfg0.win 7).blk t).view.read (Elt F) (column V c) := by
  show (cfg0.win 7).cut (grid0.coords t) ((dat0 V c).after 7 t) = _
  rw [after0_7, out_eq V c t]
  exact read_whole t _

/-- An index of the output array is in the point's block iff each coordinate is in the block's range on its axis. -/
theorem mem_block (t : Fin cfg0.N) (i : S8192x1.Idx) :
    i ∈ ((cfg0.win 7).blk t).view.set ↔ ∀ a : Fin 2, win0_7.index t a * S8192x1.size a ≤ (i a).val ∧ (i a).val < win0_7.index t a * S8192x1.size a + S8192x1.size a := by
  show i ∈ ((View.whole main_v21).slice (win0_7.rect t)).set ↔ _
  rw [View.set_slice_whole, Rect.mem_set_unit]
  exact Iff.rfl

/-- THE ARRAY after the region: the one block covers it, so it is `column`. -/
theorem final (c : Dev nD) : (dat0 V c).arrAt 7 cfg0.N = column V c := by
  refine (dat0 V c).arrAt_eq_of_cover 7 (column V c) (fun t _ => flushed_eq V c t) fun i => ⟨t0_0, flush0_7 t0_0, ?_⟩
  rw [mem_block]
  intro a
  match a with
  | ⟨0, _⟩ =>
    have hi : (i 0).val < 8192 := (i 0).isLt
    show win0_7.index t0_0 (0 : Fin 2) * 8192 ≤ (i 0).val ∧ (i 0).val < win0_7.index t0_0 (0 : Fin 2) * 8192 + 8192
    rw [(index_zero t0_0 0).2.2.2.2.2.2.2]; omega
  | ⟨1, _⟩ =>
    have hi : (i 1).val < 1 := (i 1).isLt
    show win0_7.index t0_0 (1 : Fin 2) * 1 ≤ (i 1).val ∧ (i 1).val < win0_7.index t0_0 (1 : Fin 2) * 1 + 1
    rw [(index_zero t0_0 1).2.2.2.2.2.2.2]; omega

end Cert.KernelIdeal.Mlp

end
-- ==== Proof.OuterRegion.lean ====
/-
  The outer-product region's output array.  The grid has 4 × 4 points; at point (p, q) the column window holds rows
  2048 p … 2048 p + 2047 of the column h, the row window holds columns 2048 q … of the row hT, and the body stores the
  2048 × 2048 tile  h (r) · hT (s)  of block (p, q) of the output.  The sixteen tiles cover the output, and each is the
  restriction of one function of the whole arrays: the output array ends at  (i, j) ↦ h (i, 0) · hT (0, j).
-/
import proofs.«104943_j90950227460160_2_alg».proof.Proof.Gen.KernelIdeal.Frame
import Idealize.ShloMosaic.Lib.Pipeline.Value

set_option maxRecDepth 16384

noncomputable section

namespace Cert.KernelIdeal.Outer

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-! ## The body's tile -/

/-- The entry of a column [a, 1] in the row of an index of [a, b]. -/
abbrev colOf {a b : Nat} (j : (⟨2, ![a, b]⟩ : Shape).Idx) : (⟨2, ![a, 1]⟩ : Shape).Idx := fun ax => match ax with
  | ⟨0, _⟩ => ⟨(j 0).val, (j 0).isLt⟩
  | ⟨1, _⟩ => ⟨0, Nat.one_pos⟩
/-- The entry of a row [1, b] in the column of an index of [a, b]. -/
abbrev rowOf {a b : Nat} (j : (⟨2, ![a, b]⟩ : Shape).Idx) : (⟨2, ![1, b]⟩ : Shape).Idx := fun ax => match ax with
  | ⟨0, _⟩ => ⟨0, Nat.one_pos⟩
  | ⟨1, _⟩ => ⟨(j 1).val, (j 1).isLt⟩

/-- The body's payload at (r, s): the column block's entry r times the row block's entry s. -/
theorem tile_apply (x0 : Vec F S2048x1 .f32) (x1 : Vec F S1x2048 .f32) (j : S2048x2048.Idx) :
    k1_pay1 x0 x1 j = FloatOps.mulf (x0 (colOf j)) (x1 (rowOf j)) := by
  unfold k1_pay1
  rw [shapeCast_self, shapeCast_self]
  show FloatOps.mulf (broadcastTo S2048x2048 x0 broadcasts_S2048x1_S2048x2048 j) (broadcastTo S2048x2048 x1 broadcasts_S1x2048_S2048x2048 j) = _
  rw [broadcastTo_apply x0 broadcasts_S2048x1_S2048x2048 j (colOf j) (fun ax => match ax with
      | ⟨0, _⟩ => by show (j 0).val = if (2048 : Nat) = 1 then 0 else (j 0).val; rw [if_neg (by decide)]
      | ⟨1, _⟩ => by show 0 = if (1 : Nat) = 1 then 0 else (j 1).val; rw [if_pos rfl]),
    broadcastTo_apply x1 broadcasts_S1x2048_S2048x2048 j (rowOf j) (fun ax => match ax with
      | ⟨0, _⟩ => by show 0 = if (1 : Nat) = 1 then 0 else (j 0).val; rw [if_pos rfl]
      | ⟨1, _⟩ => by show (j 1).val = if (2048 : Nat) = 1 then 0 else (j 1).val; rw [if_neg (by decide)])]

/-! ## The index maps over the grid -/

/-- The column window follows the output's block row and the row window its block column (decided over the sixteen
    points); the output's block indices stay below 4. -/
theorem index_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = win1_2.index t (1 : Fin 2)
    ∧ win1_2.index t (0 : Fin 2) ≤ 3 ∧ win1_2.index t (1 : Fin 2) ≤ 3 :=
  (by decide +kernel : ∀ t : Fin grid1.N, _)

/-- Every block of the output is some point's. -/
theorem index_onto : ∀ (q0 q1 : Fin 4), ∃ t : Fin cfg1.N, win1_2.index t = ![q0.val, q1.val] :=
  (by decide +kernel : ∀ (q0 q1 : Fin 4), ∃ t : Fin grid1.N, win1_2.index t = ![q0.val, q1.val])

/-! ## What a point writes back, and the array after the region -/

/-- The output as one function of the column h and the row hT. -/
abbrev product (h : S8192x1.Idx → Elt F .f32) (hT : S1x8192.Idx → Elt F .f32) : S8192x8192.Idx → Elt F .f32 :=
  fun i => FloatOps.mulf (h (colOf i)) (hT (rowOf i))

/-- WHAT POINT `t` WRITES BACK is block `t` of `product` of the two arrays the region was entered with. -/
theorem flushed_eq (c : Dev nD) (t : Fin cfg1.N) :
    (dat1 V c).flushed 2 t = ((cfg1.win 2).blk t).view.read (Elt F) (product (V c main_v21) (V c main_v22)) := by
  show (cfg1.win 2).cut (grid1.coords t) ((dat1 V c).after 2 t) = _
  rw [after1_2]
  unfold out1_2
  rw [View.canon_unit_zero zero_offsets]
  simp only [View.ld_unit_zero (S := S2048x1) zero_offsets, View.ld_unit_zero (S := S1x2048) zero_offsets]
  obtain ⟨e0, e1, e2, e3, e4, e5⟩ := index_facts t
  funext y
  show k1_pay1 (iblk1 V c 0 t) (iblk1 V c 1 t) _ = _
  refine (tile_apply (iblk1 V c 0 t) (iblk1 V c 1 t) _).trans ?_
  show FloatOps.mulf (V c main_v21 (((cfg1.win 0).blk t).view.emb (colOf _))) (V c main_v22 (((cfg1.win 1).blk t).view.emb (rowOf _)))
    = FloatOps.mulf (V c main_v21 (colOf (((cfg1.win 2).blk t).view.emb y))) (V c main_v22 (rowOf (((cfg1.win 2).blk t).view.emb y)))
  have h0 : ((cfg1.win 0).blk t).view.emb (colOf ((cfg1.win 2).xinj (grid1.coords t) y)) = colOf (((cfg1.win 2).blk t).view.emb y) := by
    funext a; apply Fin.ext
    match a with
    | ⟨0, _⟩ => show win1_0.index t (0 : Fin 2) * 2048 + 1 * (y 0).val = win1_2.index t (0 : Fin 2) * 2048 + 1 * (y 0).val; omega
    | ⟨1, _⟩ => show win1_0.index t (1 : Fin 2) * 1 + 1 * 0 = 0; omega
  have h1 : ((cfg1.win 1).blk t).view.emb (rowOf ((cfg1.win 2).xinj (grid1.coords t) y)) = rowOf (((cfg1.win 2).blk t).view.emb y) := by
    funext a; apply Fin.ext
    match a with
    | ⟨0, _⟩ => show win1_1.index t (0 : Fin 2) * 1 + 1 * 0 = 0; omega
    | ⟨1, _⟩ => show win1_1.index t (1 : Fin 2) * 2048 + 1 * (y 1).val = win1_2.index t (1 : Fin 2) * 2048 + 1 * (y 1).val; omega
  exact congrArg₂ FloatOps.mulf (congrArg (V c main_v21) h0) (congrArg (V c main_v22) h1)

/-- An index of the output is in point `t`'s block iff each coordinate is in the block's range on its axis. -/
theorem mem_block (t : Fin cfg1.N) (i : S8192x8192.Idx) :
    i ∈ ((cfg1.win 2).blk t).view.set ↔ ∀ a : Fin 2, win1_2.index t a * S2048x2048.size a ≤ (i a).val ∧ (i a).val < win1_2.index t a * S2048x2048.size a + S2048x2048.size a := by
  show i ∈ ((View.whole main_v23).slice (win1_2.rect t)).set ↔ _
  rw [View.set_slice_whole, Rect.mem_set_unit]
  exact Iff.rfl

/-- The sixteen blocks cover the output: index (i, j) lies in block (i / 2048, j / 2048). -/
theorem covered (i : S8192x8192.Idx) : ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := index_onto ⟨(i 0).val / 2048, by omega⟩ ⟨(i 1).val / 2048, by omega⟩
  have q0 : win1_2.index t (0 : Fin 2) = (i 0).val / 2048 := congrFun ht 0
  have q1 : win1_2.index t (1 : Fin 2) = (i 1).val / 2048 := congrFun ht 1
  refine ⟨t, flush1_2 t, ?_⟩
  rw [mem_block]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 2048 ≤ (i 1).val ∧ (i 1).val < win1_2.index t (1 : Fin 2) * 2048 + 2048; omega

/-- THE ARRAY after the region is `product` of the column and the row it was entered with. -/
theorem final (c : Dev nD) : (dat1 V c).arrAt 2 cfg1.N = product (V c main_v21) (V c main_v22) :=
  (dat1 V c).arrAt_eq_of_cover 2 _ (fun t _ => flushed_eq V c t) covered

end Cert.KernelIdeal.Outer

end
-- ==== Proof.LibDenseLayer.lean ====
/-
  A dense layer  max (x · W + b, 0)  in the two forms a kernel body and a host reference print it, as whole arrays at the
  ideal values — general lemmas, for any shapes and dimension numbers:
  • `matmul_zero_eq_dot`: a `tpu.matmul` into the zero f32 accumulator is the host's `dot_general` of the same operands
    under the same dimension numbers (both are the sum, over the contracted axis, of the operands' products);
  • `bias_eq`: a bias vector [n] cast to the row [1, n] (twice: by the host and by the body's identity cast) and laid over
    a rows by `vector.broadcast` is the vector broadcast to [1, n] and that to [a, n] by `broadcast_in_dim` — also for n = 1;
    `bias_kernel_apply` / `bias_reference_apply` read either form at an index;
  • `zero_splat_eq`: the scalar zero splat is the broadcast of the rank-0 zero constant.
  With them a kernel's layer rewrites to the reference's layer with no index arithmetic and no algebra on the extended reals.
-/
import Idealize.ShloMosaic.PureOps.Ideal.Laws
import Idealize.ShloMosaic.Lib.Pipeline.Value

noncomputable section

namespace Cert.DenseLayer

open Idealize.ShloMosaic

/-! ## The three ingredients of a layer -/

/-- A `tpu.matmul` into the zero accumulator is the host's `dot_general` of the same operands under the same dimension
    numbers: at the ideal values both are the sum, over the contracted axis, of the operands' products. -/
theorem matmul_zero_eq_dot {sl sr so : Shape} {φ₁ φ₂ : FTy} (d : DotDims sl sr so) (p p' : Option ContractPrecision)
    (l : FVec Ideal sl φ₁) (r : FVec Ideal sr φ₂) :
    matmul d p l r (constant (F := Ideal) so .f32 0x00000000#32) = Host.dotGeneral d p' l r := by
  funext j
  show FloatOps.matmul d p l r (constant (F := Ideal) so .f32 0x00000000#32) j = FloatOps.dotGeneral d p' .single l r j
  rw [Ideal.matmul_constant_zero_apply, Ideal.dotGeneral_apply]

/-- The scalar zero splat of the kernel is the reference's broadcast of the rank-0 zero constant. -/
theorem zero_splat_eq {F : FTy → Type} [FloatOps F] (s : Shape) (h : (⟨0, ![]⟩ : Shape).BroadcastsInDim s ![]) :
    broadcast s (Scalar.ofBits (F := F) .f32 0x00000000#32)
      = broadcastInDim s ![] h (constant (F := F) ⟨0, ![]⟩ .f32 0x00000000#32) := rfl

/-- The column of a [n]-vector that a row index of [1, n] names. -/
abbrev vecIdx {n : Nat} (j : (⟨2, ![1, n]⟩ : Shape).Idx) : (⟨1, ![n]⟩ : Shape).Idx := fun a => match a with
  | ⟨0, _⟩ => ⟨(j 1).val, (j 1).isLt⟩
/-- The position in the one row [1, n] under an index of [a, n]. -/
abbrev rowIdx {a n : Nat} (j : (⟨2, ![a, n]⟩ : Shape).Idx) : (⟨2, ![1, n]⟩ : Shape).Idx := fun ax => match ax with
  | ⟨0, _⟩ => ⟨0, Nat.one_pos⟩
  | ⟨1, _⟩ => ⟨(j 1).val, (j 1).isLt⟩

/-- The kernel's bias array — the vector [n] cast to the row [1, n] by the host, loaded, and laid over the a rows —
    holds at (p, e) the vector's entry e. -/
theorem bias_kernel_apply {α : Type} {a n : Nat} (b : (⟨1, ![n]⟩ : Shape).Idx → α)
    (h1 : (⟨1, ![n]⟩ : Shape).ShapeCasts ⟨2, ![1, n]⟩) (h2 : (⟨2, ![1, n]⟩ : Shape).ShapeCasts ⟨2, ![1, n]⟩)
    (h3 : (⟨2, ![1, n]⟩ : Shape).Broadcasts ⟨2, ![a, n]⟩) (j : (⟨2, ![a, n]⟩ : Shape).Idx) :
    broadcastTo ⟨2, ![a, n]⟩ (shapeCast ⟨2, ![1, n]⟩ (shapeCast ⟨2, ![1, n]⟩ b h1) h2) h3 j = b (vecIdx (rowIdx j)) := by
  rw [shapeCast_self]
  refine (broadcastTo_apply _ h3 j (rowIdx j) fun ax => ?_).trans ?_
  · match ax with
    | ⟨0, _⟩ => exact (if_pos rfl).symm
    | ⟨1, _⟩ =>
      show (j 1).val = if n = 1 then 0 else (j 1).val
      split
      · have hlt : (j 1).val < n := (j 1).isLt
        omega
      · rfl
  · refine shapeCast_apply b h1 (rowIdx j) (vecIdx (rowIdx j)) ?_
    rw [Shape.rowMajor_val_two, Shape.rowMajor_val_one]
    show (j 1).val = 0 * n + (j 1).val
    omega

/-- The reference's bias array — the vector [n] broadcast to [1, n] and that to [a, n] — holds the same entry there. -/
theorem bias_reference_apply {α : Type} {a n : Nat} (b : (⟨1, ![n]⟩ : Shape).Idx → α)
    (h4 : (⟨2, ![1, n]⟩ : Shape).BroadcastsInDim ⟨2, ![a, n]⟩ ![0, 1])
    (h5 : (⟨1, ![n]⟩ : Shape).BroadcastsInDim ⟨2, ![1, n]⟩ ![1]) (j : (⟨2, ![a, n]⟩ : Shape).Idx) :
    broadcastInDim ⟨2, ![a, n]⟩ ![0, 1] h4 (broadcastInDim ⟨2, ![1, n]⟩ ![1] h5 b) j = b (vecIdx (rowIdx j)) := by
  refine (broadcastInDim_apply _ h4 _ j (rowIdx j) fun ax => ?_).trans (broadcastInDim_apply _ h5 b (rowIdx j) (vecIdx (rowIdx j)) fun ax => ?_)
  · match ax with
    | ⟨0, _⟩ => exact (if_pos rfl).symm
    | ⟨1, _⟩ =>
      show (j 1).val = if n = 1 then 0 else (j 1).val
      split
      · have hlt : (j 1).val < n := (j 1).isLt
        omega
      · rfl
  · match ax with
    | ⟨0, _⟩ =>
      show (j 1).val = if n = 1 then 0 else (j 1).val
      split
      · have hlt : (j 1).val < n := (j 1).isLt
        omega
      · rfl

/-- So the two bias arrays are one array. -/
theorem bias_eq {α : Type} {a n : Nat} (b : (⟨1, ![n]⟩ : Shape).Idx → α)
    (h1 : (⟨1, ![n]⟩ : Shape).ShapeCasts ⟨2, ![1, n]⟩) (h2 : (⟨2, ![1, n]⟩ : Shape).ShapeCasts ⟨2, ![1, n]⟩)
    (h3 : (⟨2, ![1, n]⟩ : Shape).Broadcasts ⟨2, ![a, n]⟩)
    (h4 : (⟨2, ![1, n]⟩ : Shape).BroadcastsInDim ⟨2, ![a, n]⟩ ![0, 1])
    (h5 : (⟨1, ![n]⟩ : Shape).BroadcastsInDim ⟨2, ![1, n]⟩ ![1]) :
    broadcastTo ⟨2, ![a, n]⟩ (shapeCast ⟨2, ![1, n]⟩ (shapeCast ⟨2, ![1, n]⟩ b h1) h2) h3
      = broadcastInDim ⟨2, ![a, n]⟩ ![0, 1] h4 (broadcastInDim ⟨2, ![1, n]⟩ ![1] h5 b) :=
  funext fun j => (bias_kernel_apply b h1 h2 h3 j).trans (bias_reference_apply b h4 h5 j).symm

end Cert.DenseLayer

end
-- ==== Proof.PerceptronValue.lean ====
/-
  The perceptron region's payload is the reference's third activation.
  With the aggregated features z given, the kernel's body computes, from z, the three weight matrices and the three bias
  rows the host cast from the bias vectors,  max (max (max (z·W1 + b1, 0)·W2 + b2, 0)·W3 + b3, 0) ; the reference's
  operations from its first `dot_general` to its third `relu` compute the same of the same z.  Layer by layer the two
  are equal as arrays (the three ingredients of a layer), so the whole towers are.
-/
import proofs.«104943_j90950227460160_2_alg».proof.Proof.LibDenseLayer
import proofs.«104943_j90950227460160_2_alg».proof.Proof.Gen.KernelIdeal.Skeleton
import proofs.«104943_j90950227460160_2_alg».proof.Proof.Gen.ReferenceIdeal.Read

noncomputable section

namespace Cert.Bridge

open Idealize.ShloMosaic
open Cert.ReferenceIdeal.Read
open Cert.DenseLayer

/-- The two programs print one dimension-number record each per product; they are the same records. -/
theorem dims1_eq : Cert.KernelIdeal.dot_S8192x3_S3x16_S8192x16_1_0_0_1_n_n = Cert.ReferenceIdeal.dot_S8192x3_S3x16_S8192x16_1_0_0_1_n_n := rfl
theorem dims2_eq : Cert.KernelIdeal.dot_S8192x16_S16x16_S8192x16_1_0_0_1_n_n = Cert.ReferenceIdeal.dot_S8192x16_S16x16_S8192x16_1_0_0_1_n_n := rfl
theorem dims3_eq : Cert.KernelIdeal.dot_S8192x16_S16x1_S8192x1_1_0_0_1_n_n = Cert.ReferenceIdeal.dot_S8192x16_S16x1_S8192x1_1_0_0_1_n_n := rfl

/-- The body's payload, of the features z = the reference's `%17`, the weights, and the bias vectors cast to rows, is the
    reference's `%32`: the perceptron's output column. -/
theorem mlp_eq (x0 : (⟨Cert.ReferenceIdeal.S8192x3, .f32⟩ : BufTy).Contents (Elt Ideal))
    (x1 : (⟨Cert.ReferenceIdeal.S2x524288, .i32⟩ : BufTy).Contents (Elt Ideal))
    (x2 : (⟨Cert.ReferenceIdeal.S_, .f32⟩ : BufTy).Contents (Elt Ideal))
    (x3 : (⟨Cert.ReferenceIdeal.S3x16, .f32⟩ : BufTy).Contents (Elt Ideal))
    (x4 : (⟨Cert.ReferenceIdeal.S16, .f32⟩ : BufTy).Contents (Elt Ideal))
    (x5 : (⟨Cert.ReferenceIdeal.S16x16, .f32⟩ : BufTy).Contents (Elt Ideal))
    (x6 : (⟨Cert.ReferenceIdeal.S16, .f32⟩ : BufTy).Contents (Elt Ideal))
    (x7 : (⟨Cert.ReferenceIdeal.S16x1, .f32⟩ : BufTy).Contents (Elt Ideal))
    (x8 : (⟨Cert.ReferenceIdeal.S1, .f32⟩ : BufTy).Contents (Elt Ideal))
    (h16 : Cert.KernelIdeal.S16.ShapeCasts Cert.KernelIdeal.S1x16) (h1 : Cert.KernelIdeal.S1.ShapeCasts Cert.KernelIdeal.S1x1) :
    Cert.KernelIdeal.Gen.k0_pay1 (F := Ideal) (val_main_v17 (F := Ideal) x0 x1 x2) x3 (shapeCast Cert.KernelIdeal.S1x16 x4 h16) x5
        (shapeCast Cert.KernelIdeal.S1x16 x6 h16) x7 (shapeCast Cert.KernelIdeal.S1x1 x8 h1)
      = val_main_v32 (F := Ideal) x0 x1 x2 x3 x4 x5 x6 x7 x8 := by
  unfold val_main_v32 val_main_v31 val_main_v30 val_main_v29 val_main_v28 val_main_v27 val_main_v26 val_main_v25 val_main_v24
    val_main_v23 val_main_v22 val_main_v21 val_main_v20 val_main_v19 val_main_v18
    val_main_call0_v0 val_main_call0_cst val_main_call1_v0 val_main_call1_cst val_main_call2_v0 val_main_call2_cst
  generalize val_main_v17 (F := Ideal) x0 x1 x2 = z
  unfold Cert.KernelIdeal.Gen.k0_pay1
  dsimp only
  rw [shapeCast_self z]
  rw [bias_eq x4 h16 _ _ Cert.ReferenceIdeal.Gen.bcast_S1x16_S8192x16_0_1 Cert.ReferenceIdeal.Gen.bcast_S16_S1x16_1,
    bias_eq x6 h16 _ _ Cert.ReferenceIdeal.Gen.bcast_S1x16_S8192x16_0_1 Cert.ReferenceIdeal.Gen.bcast_S16_S1x16_1,
    bias_eq x8 h1 _ _ Cert.ReferenceIdeal.Gen.bcast_S1x1_S8192x1_0_1 Cert.ReferenceIdeal.Gen.bcast_S1_S1x1_1]
  rw [zero_splat_eq Cert.KernelIdeal.S8192x16 Cert.ReferenceIdeal.Gen.bcast_S_S8192x16,
    zero_splat_eq Cert.KernelIdeal.S8192x1 Cert.ReferenceIdeal.Gen.bcast_S_S8192x1]
  rw [matmul_zero_eq_dot _ _ none, matmul_zero_eq_dot _ _ none, matmul_zero_eq_dot _ _ none]
  rw [dims1_eq, dims2_eq, dims3_eq]

end Cert.Bridge

end
-- ==== Proof.KernelValue.lean ====
/-
  The idealized kernel's result as one function of the argument arrays.
  The perceptron region leaves, in its output column, the body's payload of the aggregated features, the weights and the
  bias rows — which is the reference's third activation h of the same arguments; the host casts that column to a row, and
  the outer-product region leaves  (i, j) ↦ h (i, 0) · row (0, j)  in the result.
-/
import proofs.«104943_j90950227460160_2_alg».proof.Proof.HostGlue
import proofs.«104943_j90950227460160_2_alg».proof.Proof.MlpRegion
import proofs.«104943_j90950227460160_2_alg».proof.Proof.OuterRegion
import proofs.«104943_j90950227460160_2_alg».proof.Proof.PerceptronValue

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The perceptron's output column, as the reference's third activation of the kernel's argument arrays. -/
abbrev hidden (c : Dev nD) : S8192x1.Idx → Elt Ideal .f32 :=
  Cert.ReferenceIdeal.Read.val_main_v32 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8))

/-- The column the outer-product region is entered with is `hidden`. -/
theorem column_eq (c : Dev nD) : V3 m ρ c main_v21 = hidden m c := by
  rw [entry_col m ρ c, Mlp.final (V1 m ρ) c]
  show k0_pay1 (V1 m ρ c main_v17) (V1 m ρ c main_arg3) (V1 m ρ c main_v18) (V1 m ρ c main_arg5) (V1 m ρ c main_v19)
    (V1 m ρ c main_arg7) (V1 m ρ c main_v20) = _
  rw [entry_z m ρ c, entry_w1 m ρ c, entry_b1 m ρ c, entry_w2 m ρ c, entry_b2 m ρ c, entry_w3 m ρ c, entry_b3 m ρ c]
  exact Cert.Bridge.mlp_eq _ _ _ _ _ _ _ _ _ _ _

/-- THE RESULT: entry (i, j) is the column's entry i times the entry j of the column cast to a row. -/
theorem result_eq (c : Dev nD) :
    W4 m ρ c (Proc.devRef .tc main_v23)
      = Outer.product (hidden m c) (shapeCast S1x8192 (hidden m c) shapeCasts_S8192x1_S1x8192) := by
  rw [result_arr m ρ c, Outer.final (V3 m ρ) c]
  show Outer.product (V3 m ρ c main_v21) (V3 m ρ c main_v22) = _
  rw [entry_row m ρ c, column_eq m ρ c]

end Cert.KernelIdeal.Result

end
-- ==== Proof.RefValue.lean ====
/-
  The reference's result in the kernel's form.  The reference multiplies its third activation h, a column [8192, 1], by
  its transpose, contracting the axis of extent one: entry (i, j) is the one-term sum  h (i, 0) · hᵀ (0, j)  =  h (i, 0) · h (j, 0).
  The kernel reads the same column against the column CAST to a row; a column cast to a row and a column transposed are the
  same row (both read the column at (j, 0) for the row's entry (0, j)), so the two results agree entry by entry — with no
  algebra on the extended reals beyond a sum of one term.
-/
import proofs.«104943_j90950227460160_2_alg».proof.Proof.OuterRegion
import proofs.«104943_j90950227460160_2_alg».proof.Proof.Gen.ReferenceIdeal.Read

noncomputable section

namespace Cert.Bridge

open Idealize.ShloMosaic
open Cert.ReferenceIdeal.Read
open Cert.KernelIdeal.Outer (colOf rowOf product)

/-- A column [8192, 1] cast to the row [1, 8192] reads, at (0, j), the column at (j, 0): the index the transpose reads. -/
theorem row_of_column {α : Type} (H : Cert.KernelIdeal.S8192x1.Idx → α)
    (h : Cert.KernelIdeal.S8192x1.ShapeCasts Cert.KernelIdeal.S1x8192) (j : Cert.KernelIdeal.S1x8192.Idx) :
    shapeCast Cert.KernelIdeal.S1x8192 H h j = H (idx_main_v33 j) := by
  refine shapeCast_apply H h j (idx_main_v33 j) ?_
  rw [Shape.rowMajor_val_two, Shape.rowMajor_val_two]
  have h0 : (j 0).val < 1 := (j 0).isLt
  show (j 1).val * 1 + (j 0).val = (j 0).val * 8192 + (j 1).val
  omega

/-- The reference's result is the outer product of its third activation with that activation cast to a row. -/
theorem reference_eq (x0 : (⟨Cert.ReferenceIdeal.S8192x3, .f32⟩ : BufTy).Contents (Elt Ideal))
    (x1 : (⟨Cert.ReferenceIdeal.S2x524288, .i32⟩ : BufTy).Contents (Elt Ideal))
    (x2 : (⟨Cert.ReferenceIdeal.S_, .f32⟩ : BufTy).Contents (Elt Ideal))
    (x3 : (⟨Cert.ReferenceIdeal.S3x16, .f32⟩ : BufTy).Contents (Elt Ideal))
    (x4 : (⟨Cert.ReferenceIdeal.S16, .f32⟩ : BufTy).Contents (Elt Ideal))
    (x5 : (⟨Cert.ReferenceIdeal.S16x16, .f32⟩ : BufTy).Contents (Elt Ideal))
    (x6 : (⟨Cert.ReferenceIdeal.S16, .f32⟩ : BufTy).Contents (Elt Ideal))
    (x7 : (⟨Cert.ReferenceIdeal.S16x1, .f32⟩ : BufTy).Contents (Elt Ideal))
    (x8 : (⟨Cert.ReferenceIdeal.S1, .f32⟩ : BufTy).Contents (Elt Ideal))
    (h : Cert.KernelIdeal.S8192x1.ShapeCasts Cert.KernelIdeal.S1x8192) :
    val_main_v34 (F := Ideal) x0 x1 x2 x3 x4 x5 x6 x7 x8
      = product (F := Ideal) (val_main_v32 (F := Ideal) x0 x1 x2 x3 x4 x5 x6 x7 x8)
          (shapeCast Cert.KernelIdeal.S1x8192 (val_main_v32 (F := Ideal) x0 x1 x2 x3 x4 x5 x6 x7 x8) h) := by
  funext i
  rw [val_main_v34_apply, Fin.sum_univ_one, val_main_v33_apply]
  generalize val_main_v32 (F := Ideal) x0 x1 x2 x3 x4 x5 x6 x7 x8 = H
  show H (lidx_main_v34 i 0) * H (idx_main_v33 (ridx_main_v34 i 0))
    = H (colOf i) * shapeCast Cert.KernelIdeal.S1x8192 H h (rowOf i)
  rw [row_of_column H h (rowOf i)]
  have e1 : lidx_main_v34 i 0 = colOf i := funext fun a => Fin.ext (by
    match a with
    | ⟨0, _⟩ => rfl
    | ⟨1, _⟩ => rfl)
  have e2 : ridx_main_v34 i 0 = rowOf i := funext fun a => Fin.ext (by
    match a with
    | ⟨0, _⟩ => rfl
    | ⟨1, _⟩ => rfl)
  rw [e1, e2]

end Cert.Bridge

end
-- ==== Proof.lean ====
/-
  The certificate of the graph-network kernel against its reference, over the extended reals.

  Both programs form, on the host and by the same operations, the aggregated node features
  z = (1 + eps) · x + segment_sum (x[src], dst); both pass z through three layers  u ↦ max (u · W + b, 0)  to a column h of
  8192 entries; and both return the 8192 × 8192 array  (i, j) ↦ h (i) · h (j).  The kernel computes the layers in one
  region (three `tpu.matmul`s into zero accumulators, the bias as a row laid over the rows) and the products in a second,
  tiled region (a 2048-row piece of the column times a 2048-column piece of the column cast to a row); the reference uses
  the host's `dot_general` throughout, the last one contracting the unit axis of h against its transpose.
  At the ideal values a matmul into zero and a `dot_general` are the same sum, the two bias arrays and the two zero
  arrays are the same arrays, and a column cast to a row is the column transposed: the results are equal entry by entry,
  and no law of arithmetic that could fail at an infinity is used, so the finiteness of the inputs is never opened.
  The three frames are the generated ones (the reference's is its generated run with the result dropped); the ideal
  pass rewrote nothing, so `preserves` is trivial.
-/
import proofs.«104943_j90950227460160_2_alg».proof.Defs
import proofs.«104943_j90950227460160_2_alg».proof.Proof.Gen.Kernel
import proofs.«104943_j90950227460160_2_alg».proof.Proof.Gen.Kernel.Frame
import proofs.«104943_j90950227460160_2_alg».proof.Proof.Gen.KernelIdeal
import proofs.«104943_j90950227460160_2_alg».proof.Proof.Gen.KernelIdeal.Frame
import proofs.«104943_j90950227460160_2_alg».proof.Proof.Gen.ReferenceIdeal
import proofs.«104943_j90950227460160_2_alg».proof.Proof.Gen.Pre_finite_inputs
import proofs.«104943_j90950227460160_2_alg».proof.Proof.Gen.ReferenceIdeal.Run
import proofs.«104943_j90950227460160_2_alg».proof.Proof.Gen.ReferenceIdeal.Read
import proofs.«104943_j90950227460160_2_alg».proof.Proof.KernelValue
import proofs.«104943_j90950227460160_2_alg».proof.Proof.RefValue
import Idealize.ShloMosaic.Adequacy
import Idealize.ShloMosaic.Init

noncomputable section

namespace Cert.Proof

open Idealize.ShloMosaic Idealize.ShloMosaic.TcCoe Idealize.SL.Sem

/-! ## The frames and the idealization -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-! ## The two results are one array -/

/-- From memories that agree on the arguments both programs end with the result at the outer product of the
    perceptron's column with itself cast to a row: the kernel by its two regions' arrays (`result_eq`), the reference by its
    run read at an index (`reference_eq`). -/
theorem algebraic : Cert.algebraic_KernelIdeal_ReferenceIdeal := by
  intro m ρ m' ρ' _ hagree
  refine ⟨fun c => Cert.KernelIdeal.Outer.product (Cert.KernelIdeal.Result.hidden m c)
      (shapeCast Cert.KernelIdeal.S1x8192 (Cert.KernelIdeal.Result.hidden m c) Cert.KernelIdeal.Gen.shapeCasts_S8192x1_S1x8192), ?_, ?_⟩
  · exact (θ_run Cert.KernelIdeal.defs _ _).mono
      (fun r h c => ⟨(h c).1.trans (Cert.KernelIdeal.Result.result_eq m ρ c), (h c).2⟩)
      (Cert.KernelIdeal.Result.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v34_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact Cert.Bridge.reference_eq _ _ _ _ _ _ _ _ _ _

/-! ## The claim -/

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
